-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2048x64 : Shape := ⟨2, ![2048, 64]⟩
abbrev S2048 : Shape := ⟨1, ![2048]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S65536x64 .f32) (main_arg1 : FVec F S2048x64 .f32) (main_arg2 : FVec F S2048 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S65536x64 : Shape := ⟨2, ![65536, 64]⟩
abbrev S2048x64 : Shape := ⟨2, ![2048, 64]⟩
abbrev S2048 : Shape := ⟨1, ![2048]⟩
abbrev S_ : Shape := ⟨0, ![]⟩
abbrev S1x2048 : Shape := ⟨2, ![1, 2048]⟩
abbrev S65536x2048 : Shape := ⟨2, ![65536, 2048]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 7
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S2048, .f32⟩
  | .hbm, ⟨3, _⟩ => ⟨S2048x64, .f32⟩
  | .hbm, ⟨4, _⟩ => ⟨S_, .f32⟩
  | .hbm, ⟨5, _⟩ => ⟨S2048, .f32⟩
  | .hbm, ⟨6, _⟩ => ⟨S1x2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S1x2048, .f32⟩
  | .hbm, ⟨12, _⟩ => ⟨S65536x2048, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S2048x64_S2048_d1 : S2048x64.ReducesTo [1] S2048
  h_S_ : 0 < S_.numel
  shapeCasts_S2048_S1x2048 : S2048.ShapeCasts S1x2048
  bcast_S_S2048 : S_.BroadcastsInDim S2048 (![] : Fin 0 → Fin S2048.rank)
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x64_S512 : S512x64.Reduces [1] S512
  shapeCasts_S512_S512x1 : S512.ShapeCasts S512x1
  bitsLt_bf16_f32 : FTy.bits .bf16 < FTy.bits .f32
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S65536x64.size a
  hwx0_0 : ∀ i : grid0.Coords, EltTy.bits .f32 = 32 ∨ (Rect.block (s := S65536x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S65536x2048.size a
  hwx0_4 : ∀ i : grid0.Coords, EltTy.bits .f32 = 32 ∨ (Rect.block (s := S65536x2048) S512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x64 : Shape := ⟨2, ![65536, 64]⟩
abbrev S2048x64 : Shape := ⟨2, ![2048, 64]⟩
abbrev S2048 : Shape := ⟨1, ![2048]⟩
abbrev S_ : Shape := ⟨0, ![]⟩
abbrev S65536 : Shape := ⟨1, ![65536]⟩
abbrev S65536x1 : Shape := ⟨2, ![65536, 1]⟩
abbrev S65536x2048 : Shape := ⟨2, ![65536, 2048]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S2048, .f32⟩
  | .hbm, ⟨3, _⟩ => ⟨S65536x64, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S2048x64, .f32⟩
  | .hbm, ⟨8, _⟩ => ⟨S_, .f32⟩
  | .hbm, ⟨9, _⟩ => ⟨S2048, .f32⟩
  | .hbm, ⟨10, _⟩ => ⟨S65536x2048, .f32⟩
  | .hbm, ⟨11, _⟩ => ⟨S_, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S65536x2048, .f32⟩
  | .hbm, ⟨16, _⟩ => ⟨S1x2048, .f32⟩
  | .hbm, ⟨17, _⟩ => ⟨S65536x2048, .f32⟩
  | .hbm, ⟨18, _⟩ => ⟨S65536x2048, .f32⟩
  | .hbm, ⟨19, _⟩ => ⟨S_, .f32⟩
  | .hbm, ⟨20, _⟩ => ⟨S65536x2048, .f32⟩
  | .hbm, ⟨21, _⟩ => ⟨S65536x2048, .f32⟩
  | .hbm, ⟨22, _⟩ => ⟨S65536x2048, .f32⟩
  | .hbm, ⟨23, _⟩ => ⟨S2048, .f32⟩
  | .hbm, ⟨24, _⟩ => ⟨S1x2048, .f32⟩
  | .hbm, ⟨25, _⟩ => ⟨S65536x2048, .f32⟩
  | .hbm, ⟨26, _⟩ => ⟨S65536x2048, .f32⟩
  | .hbm, ⟨27, _⟩ => ⟨S65536x2048, .f32⟩
  | .hbm, ⟨28, _⟩ => ⟨S65536x2048, .f32⟩
  | .hbm, ⟨29, _⟩ => ⟨S65536x2048, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S2048x64_S2048_d1 : S2048x64.ReducesTo [1] S2048
  bcast_S_S65536x2048 : S_.BroadcastsInDim S65536x2048 (![] : Fin 0 → Fin S65536x2048.rank)
  bcast_S65536x1_S65536x2048_0_1 : S65536x1.BroadcastsInDim S65536x2048 (![0, 1] : Fin 2 → Fin S65536x2048.rank)
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  dot_S65536x64_S2048x64_S65536x2048_1_1_0_0_n_n_wf : DotDims.WF S65536x64 S2048x64 S65536x2048 [1] [1] [0] [0] [] []

variable [Facts₀]

def dot_S65536x64_S2048x64_S65536x2048_1_1_0_0_n_n : DotDims S65536x64 S2048x64 S65536x2048 where
  lhsContracting := [1]
  rhsContracting := [1]
  lhsNonContracting := [0]
  rhsNonContracting := [0]
  lhsBatch := []
  rhsBatch := []
  wf := dot_S65536x64_S2048x64_S65536x2048_1_1_0_0_n_n_wf

class Facts : Prop extends Facts₀ where

variable [Facts]
-- ==== Proof.GaussLaw.lean ====
/-
  The one law that joins the two programs, on the extended reals.

  Both programs compute a clamped squared distance s = max(‖x‖² − 2·x·c + ‖c‖², 0) ≥ 0 and a log-width l.
  One of them returns exp(−(√s / eˡ)²), the other exp((0 − s) · e^(−2·l)).  For a real l the width eˡ is a
  positive real, so dividing by it is multiplying by its reciprocal, and (√s / eˡ)² = s · e^(−2l) for every
  real s ≥ 0.  At s = +∞ both exponents are −∞ and both results are 0.  So the two agree for EVERY extended
  real s ≥ 0: only the log-width has to be finite.
-/
import Idealize.ShloMosaic.PureOps.Ideal
import Idealize.ShloMosaic.PureOps.Ideal.Laws

noncomputable section

namespace Cert.GaussLaw

open Idealize.ShloMosaic

/-- The pattern of the float -2.0 denotes the real -2. -/
theorem ofBits_negTwo : Ideal.ofBits .f32 0xC0000000#32 = ((-2 : ℝ) : EReal) := by
  simp [Ideal.ofBits, Ideal.ieee, -EReal.coe_mul]; norm_num

/-- e^(−2l) is the square of the reciprocal of eˡ. -/
theorem exp_neg_two_mul (l : ℝ) : Real.exp (-2 * l) = (1 / Real.exp l) * (1 / Real.exp l) := by
  rw [show -2 * l = -l + -l by ring, Real.exp_add, Real.exp_neg]; ring

/-- exp(−(√s / eˡ)²) = exp((0 − s) · e^(−2l)) for every extended real s ≥ 0 and every real l. -/
theorem gauss_law (s : EReal) (hs : 0 ≤ s) (l : ℝ) :
    Ideal.exp (-(Ideal.div (Ideal.sqrt s) (Ideal.exp (l : EReal)) * Ideal.div (Ideal.sqrt s) (Ideal.exp (l : EReal))))
      = Ideal.exp ((0 - s) * Ideal.exp (Ideal.ofBits .f32 0xC0000000#32 * (l : EReal))) := by
  have hne : Real.exp l ≠ 0 := (Real.exp_pos l).ne'
  have hinv : (0 : ℝ) < 1 / Real.exp l := by positivity
  rw [ofBits_negTwo, ← EReal.coe_mul, Ideal.exp_coe, Ideal.exp_coe, Ideal.div_coe hne, sub_eq_add_neg, zero_add]
  induction s using EReal.rec with
  | bot => exact absurd hs (by simp)
  | top =>
    have h1 : (0 : EReal) < ((1 / Real.exp l : ℝ) : EReal) := by exact_mod_cast hinv
    have h2 : (0 : EReal) < ((Real.exp (-2 * l) : ℝ) : EReal) := by exact_mod_cast Real.exp_pos _
    rw [Ideal.sqrt_top, EReal.top_mul_of_pos h1, EReal.top_mul_top, EReal.neg_top, EReal.bot_mul_of_pos h2]
  | coe r =>
    have hr : 0 ≤ r := by exact_mod_cast hs
    rw [Ideal.sqrt_coe, if_neg (not_lt.mpr hr), ← EReal.coe_mul, ← EReal.coe_mul, ← EReal.coe_neg, ← EReal.coe_neg,
      ← EReal.coe_mul, Ideal.exp_coe, Ideal.exp_coe, exp_neg_two_mul]
    congr 2
    have hsq : Real.sqrt r * Real.sqrt r = r := Real.mul_self_sqrt hr
    calc -(Real.sqrt r * (1 / Real.exp l) * (Real.sqrt r * (1 / Real.exp l)))
        = -((Real.sqrt r * Real.sqrt r) * ((1 / Real.exp l) * (1 / Real.exp l))) := by ring
      _ = -r * (1 / Real.exp l * (1 / Real.exp l)) := by rw [hsq]; ring

end Cert.GaussLaw

end
-- ==== Proof.GaussSpec.lean ====
/-
  The Gaussian radial-basis layer as one function of its three argument arrays, index by index.

  For a row r of x : [65536, 64] and a centre o of c : [2048, 64] the clamped squared distance is
      sqDist x c r o = max ((Σₖ x[r,k]·x[r,k] − 2 · Σₖ x[r,k]·c[o,k]) + Σₖ c[o,k]·c[o,k]) 0,
  the expansion ‖x‖² − 2·x·c + ‖c‖² of ‖x − c‖² clamped at zero.  With the log-widths ls : [2048] the layer's entry (r, o) is
  written in two ways: `gauss` multiplies the negated distance by e^(−2·ls[o]), `gaussRef` divides its square root by e^(ls[o]), squares
  and negates.  Where every log-width is a real number the two are one array (`gaussRef_eq_gauss`), by the law of
  GaussLaw.lean; the clamp is what makes the distance non-negative, and nothing is asked of x and c.
-/
import Idealize.ShloMosaic.PureOps.Ideal
import Idealize.ShloMosaic.PureOps.Ideal.Laws
import Idealize.ShloMosaic.Lib.ValueIdx
import proofs.«146927_j16389595201656_2_alg».proof.Proof.GaussLaw

noncomputable section

namespace Cert.GaussSpec

open Idealize.ShloMosaic Idealize.ShloMosaic.ValueIdx

/-- ‖x[r] − c[o]‖², expanded as ‖x[r]‖² − 2·x[r]·c[o] + ‖c[o]‖² and clamped at zero. -/
def sqDist (x : FVec Ideal (⟨2, ![65536, 64]⟩ : Shape) .f32) (c : FVec Ideal (⟨2, ![2048, 64]⟩ : Shape) .f32)
    (r : Fin 65536) (o : Fin 2048) : EReal :=
  max ((∑ k : Fin 64, x (ix2 r k) * x (ix2 r k)
          - Ideal.ofBits .f32 0x40000000#32 * ∑ k : Fin 64, x (ix2 r k) * c (ix2 o k))
        + ∑ k : Fin 64, c (ix2 o k) * c (ix2 o k)) 0

theorem sqDist_nonneg (x : FVec Ideal (⟨2, ![65536, 64]⟩ : Shape) .f32) (c : FVec Ideal (⟨2, ![2048, 64]⟩ : Shape) .f32)
    (r : Fin 65536) (o : Fin 2048) : 0 ≤ sqDist x c r o := le_max_right _ _

/-- Entry (r, o) with the width folded into one factor: exp((0 − s) · e^(−2·l)). -/
def gaussAt (x : FVec Ideal (⟨2, ![65536, 64]⟩ : Shape) .f32) (c : FVec Ideal (⟨2, ![2048, 64]⟩ : Shape) .f32)
    (ls : FVec Ideal (⟨1, ![2048]⟩ : Shape) .f32) (r : Fin 65536) (o : Fin 2048) : EReal :=
  Ideal.exp ((0 - sqDist x c r o) * Ideal.exp (Ideal.ofBits .f32 0xC0000000#32 * ls (ix1 o)))

/-- Entry (r, o) as a distance over a width: exp(−(√s / eˡ)²). -/
def gaussRefAt (x : FVec Ideal (⟨2, ![65536, 64]⟩ : Shape) .f32) (c : FVec Ideal (⟨2, ![2048, 64]⟩ : Shape) .f32)
    (ls : FVec Ideal (⟨1, ![2048]⟩ : Shape) .f32) (r : Fin 65536) (o : Fin 2048) : EReal :=
  Ideal.exp (-(Ideal.div (Ideal.sqrt (sqDist x c r o)) (Ideal.exp (ls (ix1 o)))
    * Ideal.div (Ideal.sqrt (sqDist x c r o)) (Ideal.exp (ls (ix1 o)))))

/-- The layer's whole [65536, 2048] result, in the first form. -/
def gauss (x : FVec Ideal (⟨2, ![65536, 64]⟩ : Shape) .f32) (c : FVec Ideal (⟨2, ![2048, 64]⟩ : Shape) .f32)
    (ls : FVec Ideal (⟨1, ![2048]⟩ : Shape) .f32) : FVec Ideal (⟨2, ![65536, 2048]⟩ : Shape) .f32 :=
  fun i => gaussAt x c ls (i 0) (i 1)

/-- The layer's whole [65536, 2048] result, in the second form. -/
def gaussRef (x : FVec Ideal (⟨2, ![65536, 64]⟩ : Shape) .f32) (c : FVec Ideal (⟨2, ![2048, 64]⟩ : Shape) .f32)
    (ls : FVec Ideal (⟨1, ![2048]⟩ : Shape) .f32) : FVec Ideal (⟨2, ![65536, 2048]⟩ : Shape) .f32 :=
  fun i => gaussRefAt x c ls (i 0) (i 1)

/-- Where every log-width is a real number the two forms are one array. -/
theorem gaussRef_eq_gauss (x : FVec Ideal (⟨2, ![65536, 64]⟩ : Shape) .f32) (c : FVec Ideal (⟨2, ![2048, 64]⟩ : Shape) .f32)
    (ls : FVec Ideal (⟨1, ![2048]⟩ : Shape) .f32) (hls : ∀ o : Fin 2048, ∃ l : ℝ, ls (ix1 o) = (l : EReal)) :
    gaussRef x c ls = gauss x c ls := by
  funext i
  obtain ⟨l, hl⟩ := hls (i 1)
  show gaussRefAt x c ls (i 0) (i 1) = gaussAt x c ls (i 0) (i 1)
  unfold gaussRefAt gaussAt
  rw [hl]
  exact Cert.GaussLaw.gauss_law _ (sqDist_nonneg x c (i 0) (i 1)) l

end Cert.GaussSpec

end
-- ==== Proof.RefValue.lean ====
/-
  What the reference computes: its result array is the layer in the distance-over-width form.

  The reference's program is read one operation at a time (the generated read-at-an-index lemmas).  At entry (r, o) the
  row sum of squares reads x's row r, the centre sum of squares reads c's row o, the contraction reads both, and the
  exponent's width reads ls at o; the two zero initial values of the sums are the real 0.
-/
import proofs.«146927_j16389595201656_2_alg».proof.Proof.Gen.ReferenceIdeal.Read
import proofs.«146927_j16389595201656_2_alg».proof.Proof.GaussSpec

noncomputable section

namespace Cert.ReferenceIdeal.RefValue

open Cert.ReferenceIdeal Cert.ReferenceIdeal.Gen Cert.ReferenceIdeal.Read
open Idealize.ShloMosaic Idealize.ShloMosaic.ValueIdx Cert.GaussSpec

/-- The reference's last stage at entry (r, o) is the layer's entry there, distance over width. -/
theorem val_apply (x0 : FVec Ideal S65536x64 .f32) (x1 : FVec Ideal S2048x64 .f32) (x2 : FVec Ideal S2048 .f32)
    (r : Fin 65536) (o : Fin 2048) :
    val_main_v22 (F := Ideal) x0 x1 x2 (ix2 r o) = gaussRefAt x0 x1 x2 r o := by
  have e1 : ∀ k : Fin 64, idx_main_v1 (idx_main_v2 (idx_main_v8 (ix2 r o))) k = ix2 r k := fun k =>
    funext fun a => Fin.ext (by match a with | ⟨0, _⟩ => rfl | ⟨1, _⟩ => rfl)
  have e4 : ∀ k : Fin 64, idx_main_v4 (idx_main_v10 (idx_main_v11 (ix2 r o))) k = ix2 o k := fun k =>
    funext fun a => Fin.ext (by match a with | ⟨0, _⟩ => rfl | ⟨1, _⟩ => rfl)
  have e5l : ∀ k : Fin 64, lidx_main_v5 (ix2 r o) k = ix2 r k := fun k =>
    funext fun a => Fin.ext (by match a with | ⟨0, _⟩ => rfl | ⟨1, _⟩ => rfl)
  have e5r : ∀ k : Fin 64, ridx_main_v5 (ix2 r o) k = ix2 o k := fun k =>
    funext fun a => Fin.ext (by match a with | ⟨0, _⟩ => rfl | ⟨1, _⟩ => rfl)
  have e16 : idx_main_v17 (idx_main_v18 (ix2 r o)) = ix1 o :=
    funext fun a => Fin.ext (by match a with | ⟨0, _⟩ => rfl)
  rw [val_main_v22_apply, val_main_v21_apply, val_main_v20_apply, val_main_v19_apply, val_main_v15_apply,
    val_main_v14_apply, val_main_v12_apply, val_main_v9_apply, val_main_v8_apply, val_main_v2_apply, val_main_v1_apply,
    val_main_v7_apply, val_main_v6_apply, val_main_v5_apply, val_main_v11_apply, val_main_v10_apply, val_main_v4_apply,
    val_main_v13_apply, val_main_v18_apply, val_main_v17_apply, val_main_v16_apply]
  simp only [val_main_v0_apply, val_main_v3_apply, val_main_cst_apply, val_main_cst_0_apply, val_main_cst_1_apply,
    val_main_cst_2_apply, e1, e4, e5l, e5r, e16, Ideal.ofBits_def, Ideal.mulf_def, Ideal.addf_def, Ideal.subf_def,
    Ideal.maximumf_def, Ideal.hostUnary_sqrt_def, Ideal.hostUnary_exp_def, Ideal.hostDivf_def, Ideal.hostNegf_def,
    Ideal.negf_def, Ideal.ofBits_zero_f32, zero_add]
  rfl

/-- The reference's result array is the layer, distance over width. -/
theorem val_eq (x0 : FVec Ideal S65536x64 .f32) (x1 : FVec Ideal S2048x64 .f32) (x2 : FVec Ideal S2048 .f32) :
    val_main_v22 (F := Ideal) x0 x1 x2 = gaussRef x0 x1 x2 :=
  funext fun i => (congrArg (val_main_v22 (F := Ideal) x0 x1 x2) (eq_ix2 i)).trans (val_apply x0 x1 x2 (i 0) (i 1))

end Cert.ReferenceIdeal.RefValue

end
-- ==== Proof.LibColumn.lean ====
/-
  Column forms of the layout operations, read at an index written by coordinates.

  A row reduction with `keepdims` leaves a column `[a, 1]`: the reduced vector `[a]` is cast to `[a, 1]`, and the
  column is later broadcast along its unit axis to `[a, b]`. Both operations move no data: the cast reads the vector at
  the row's coordinate, the broadcast reads the column at the row's coordinate whatever the lane.
-/
import Idealize.ShloMosaic.Lib.ValueIdx
import Idealize.ShloMosaic.Lib.Pipeline.Value
import Idealize.ShloMosaic.Lib.ValueLayout

namespace Cert.LibColumn

open Idealize.ShloMosaic Idealize.ShloMosaic.ValueIdx

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  What the kernel's body stores, read at one entry of its [512, 2048] block.

  The body holds a block x of 512 rows, all 2048 centres c, and two rows of length 2048 that were prepared before the
  launch (the centres' squared norms, and the widths' factor).  At entry (p, q) of the block:
  the lane sum of x·x, kept as a column and broadcast along the lanes, reads row p of x; the matrix product of x with c,
  contracted over the 64 features of both, reads row p of x and row q of c (narrowing the operands to bf16 first changes
  nothing on the extended reals); each prepared row, broadcast over the 512 rows, reads its entry q.
-/
import proofs.«146927_j16389595201656_2_alg».proof.Proof.Gen.KernelIdeal.Skeleton
import proofs.«146927_j16389595201656_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- A lane sum kept as a column and broadcast back along the lanes reads, at (p, q), the sum of row p. -/
theorem rowSum_apply (src : FVec Ideal S512x64 .f32) (p : Fin 512) (q : Fin 2048) :
    broadcastTo S512x2048 (shapeCast S512x1 (multiReduction .add [1] S512 src 0x00000000#32 reduces_S512x64_S512 (.inl rfl) rfl)
      shapeCasts_S512_S512x1) broadcasts_S512x1_S512x2048 (ix2 p q) = ∑ k : Fin 64, src (ix2 p k) := by
  rw [Cert.LibColumn.broadcastTo_a1_ab_apply, Cert.LibColumn.shapeCast_a_a1_apply]
  refine (Ideal.multiReduction_add_single src 0x00000000#32 reduces_S512x64_S512 (.inl rfl) rfl (ix1 p)).trans ?_
  refine Finset.sum_congr rfl fun k _ => congrArg src ?_
  exact funext fun a => Fin.ext (by match a with | ⟨0, _⟩ => rfl | ⟨1, _⟩ => rfl)

/-- A row prepared before the launch, broadcast over the block's rows, reads its entry q. -/
theorem row_apply (v : FVec Ideal S1x2048 .f32) (p : Fin 512) (q : Fin 2048) :
    broadcastTo S512x2048 (shapeCast S1x2048 v shapeCasts_S1x2048_S1x2048) broadcasts_S1x2048_S512x2048 (ix2 p q)
      = v (ix2 (0 : Fin 1) q) := by
  rw [broadcastTo_1b_ab_apply, shapeCast_self]

/-! The product's operand indices: the left operand is read at (row of the output, k), the right at (column of the
    output, k) — both operands are contracted over their SECOND axis. -/

theorem lhs0 (i : S512x2048.Idx) (k : dot_S512x64_S2048x64_S512x2048_1_1_0_0_n_n.contr.Idx) : (dot_S512x64_S2048x64_S512x2048_1_1_0_0_n_n.lhsIdx i k 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs1 (i : S512x2048.Idx) (k : dot_S512x64_S2048x64_S512x2048_1_1_0_0_n_n.contr.Idx) : (dot_S512x64_S2048x64_S512x2048_1_1_0_0_n_n.lhsIdx i k 1).val = (k ⟨0, by decide⟩).val :=
  dot_S512x64_S2048x64_S512x2048_1_1_0_0_n_n.lhsIdx_val_of_single rfl i k
theorem rhs0 (i : S512x2048.Idx) (k : dot_S512x64_S2048x64_S512x2048_1_1_0_0_n_n.contr.Idx) : (dot_S512x64_S2048x64_S512x2048_1_1_0_0_n_n.rhsIdx i k 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs1 (i : S512x2048.Idx) (k : dot_S512x64_S2048x64_S512x2048_1_1_0_0_n_n.contr.Idx) : (dot_S512x64_S2048x64_S512x2048_1_1_0_0_n_n.rhsIdx i k 1).val = (k ⟨0, by decide⟩).val :=
  dot_S512x64_S2048x64_S512x2048_1_1_0_0_n_n.rhsIdx_val_of_single rfl i k

/-- The matrix product into a zero accumulator reads, at (p, q), the sum over the 64 features of row p of the left
    operand times row q of the right. -/
theorem dot_apply (l : FVec Ideal S512x64 .bf16) (r : FVec Ideal S2048x64 .bf16) (p : Fin 512) (q : Fin 2048) :
    matmul dot_S512x64_S2048x64_S512x2048_1_1_0_0_n_n none l r (constant (F := Ideal) S512x2048 .f32 0x00000000#32) (ix2 p q)
      = ∑ k : Fin 64, l (ix2 p k) * r (ix2 q k) := by
  show FloatOps.matmul dot_S512x64_S2048x64_S512x2048_1_1_0_0_n_n none l r (constant (F := Ideal) S512x2048 .f32 0x00000000#32) (ix2 p q) = _
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p q) ((ValueIdx.contrEquiv1 dot_S512x64_S2048x64_S512x2048_1_1_0_0_n_n 64 rfl rfl).symm k) = ix2 p k := funext fun a => Fin.ext (by
    match a with
    | ⟨0, _⟩ => exact lhs0 _ _
    | ⟨1, _⟩ => exact (lhs1 _ _).trans hk)
  have er : dot_S512x64_S2048x64_S512x2048_1_1_0_0_n_n.rhsIdx (ix2 p q) ((ValueIdx.contrEquiv1 dot_S512x64_S2048x64_S512x2048_1_1_0_0_n_n 64 rfl rfl).symm k) = ix2 q k := funext fun a => Fin.ext (by
    match a with
    | ⟨0, _⟩ => exact rhs0 _ _
    | ⟨1, _⟩ => exact (rhs1 _ _).trans hk)
  rw [el, er]

/-- The stored value at entry (p, q) of the block: exp((0 − max((Σ x·x − 2·Σ x·c) + n, 0)) · w), with n and w the two
    prepared rows' entries q. -/
theorem pay_apply (x0 : Vec Ideal S512x64 .f32) (x1 : Vec Ideal S2048x64 .f32) (x2 x4 : Vec Ideal S1x2048 .f32)
    (p : Fin 512) (q : Fin 2048) :
    k0_pay1 (F := Ideal) x0 x1 x2 x4 (ix2 p q)
      = Ideal.exp ((0 - max ((∑ k : Fin 64, x0 (ix2 p k) * x0 (ix2 p k)
            - Ideal.ofBits .f32 0x40000000#32 * ∑ k : Fin 64, x0 (ix2 p k) * x1 (ix2 q k)) + x2 (ix2 (0 : Fin 1) q)) 0)
          * x4 (ix2 (0 : Fin 1) q)) := by
  unfold k0_pay1
  show FloatOps.exp (FloatOps.mulf (FloatOps.subf (Scalar.ofBits .f32 0x00000000#32) (FloatOps.maximumf (FloatOps.addf
    (FloatOps.subf (broadcastTo S512x2048 _ broadcasts_S512x1_S512x2048 (ix2 p q))
      (FloatOps.mulf (Scalar.ofBits .f32 0x40000000#32) (matmul dot_S512x64_S2048x64_S512x2048_1_1_0_0_n_n none _ _ _ (ix2 p q))))
    (broadcastTo S512x2048 _ broadcasts_S1x2048_S512x2048 (ix2 p q))) (Scalar.ofBits .f32 0x00000000#32)))
    (broadcastTo S512x2048 _ broadcasts_S1x2048_S512x2048 (ix2 p q))) = _
  rw [rowSum_apply, dot_apply, row_apply, row_apply]
  have hz : Scalar.ofBits (F := Ideal) .f32 0x00000000#32 = (0 : EReal) := Ideal.ofBits_zero_f32
  rw [hz]
  rfl

end Cert.KernelIdeal.Payload

end
-- ==== Proof.KernelValue.lean ====
/-
  What the kernel's result array holds after the run: the layer, in the width-as-a-factor form, of the three arguments.

  Before the launch the host prepares two rows of length 2048 from the arguments: the centres' squared norms Σₖ c[o,k]²
  and the widths' factor e^(−2·ls[o]).  The grid has 128 points; point t stages rows 512·t … 512·t + 511 of x, all of c
  and both rows, and writes back rows 512·t … 512·t + 511 of the result.  So at row 512·t + p and column q the stored
  value is the layer's entry there, and the 128 row blocks tile the 65536 rows.
-/
import proofs.«146927_j16389595201656_2_alg».proof.Proof.Gen.KernelIdeal.Frame
import proofs.«146927_j16389595201656_2_alg».proof.Proof.Gen.KernelIdeal.Value
import proofs.«146927_j16389595201656_2_alg».proof.Proof.KernelPayload
import proofs.«146927_j16389595201656_2_alg».proof.Proof.GaussSpec
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.KernelValue

open Cert.KernelIdeal Cert.KernelIdeal.Gen Cert.KernelIdeal.Value Cert.KernelIdeal.Payload Cert.GaussSpec
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-- The three argument arrays on core c: x, the centres, the log-widths. -/
abbrev argX (c : Dev nD) : FVec Ideal S65536x64 .f32 := m ((c : Thread nD τ).loc main_arg0)
abbrev argC (c : Dev nD) : FVec Ideal S2048x64 .f32 := m ((c : Thread nD τ).loc main_arg1)
abbrev argL (c : Dev nD) : FVec Ideal S2048 .f32 := m ((c : Thread nD τ).loc main_arg2)

/-! ## The two rows the host prepares -/

/-- A host row sum from a zero initial value, laid out as a row [1, 2048], reads at (0, q) the sum of row q. -/
theorem hostRowSum_apply (y0 : FVec Ideal S2048x64 .f32) (q : Fin 2048) :
    shapeCast S1x2048 (Host.reduceAdd (F := Ideal) y0 (constant (F := Ideal) S_ .f32 0x00000000#32) reducesTo_S2048x64_S2048_d1 h_S_)
      shapeCasts_S2048_S1x2048 (ix2 (0 : Fin 1) q) = ∑ k : Fin 64, y0 (ix2 q k) := by
  rw [shapeCast_a_1a_apply]
  simp only [Host.reduceAdd, Ideal.hostReduceAdd_def]
  rw [Ideal.hostReduceAdd_single reducesTo_S2048x64_S2048_d1 (by decide)]
  show Ideal.ofBits .f32 0x00000000#32 + _ = _
  rw [Ideal.ofBits_zero_f32, zero_add]
  exact Finset.sum_congr rfl fun k _ => congrArg y0 (funext fun a => Fin.ext (by match a with | ⟨0, _⟩ => rfl | ⟨1, _⟩ => rfl))

/-- e^(−2·l), computed entry by entry on the host and laid out as a row [1, 2048], reads at (0, q) the entry q. -/
theorem hostWidth_apply (l : FVec Ideal S2048 .f32) (q : Fin 2048) :
    shapeCast S1x2048 (Host.exp (F := Ideal) (mulf (broadcastInDim S2048 ![] bcast_S_S2048 (constant (F := Ideal) S_ .f32 0xC0000000#32)) l))
      shapeCasts_S2048_S1x2048 (ix2 (0 : Fin 1) q) = Ideal.exp (Ideal.ofBits .f32 0xC0000000#32 * l (ix1 q)) := by
  rw [shapeCast_a_1a_apply]
  show FloatOps.hostUnary .exp (FloatOps.mulf (broadcastInDim S2048 ![] bcast_S_S2048 (constant (F := Ideal) S_ .f32 0xC0000000#32) (ix1 q)) (l (ix1 q))) = _
  rw [broadcastInDim_apply _ bcast_S_S2048 _ (ix1 q) (fun a => a.elim0) (fun a => a.elim0)]
  rfl

/-- The squared-norm row as the region finds it. -/
theorem V_norms (c : Dev nD) : (V m c main_v2 : S1x2048.Idx → EReal)
    = shapeCast S1x2048 (Host.reduceAdd (F := Ideal) (mulf (m ((c : Thread nD τ).loc main_arg1)) (m ((c : Thread nD τ).loc main_arg1)))
        (constant (F := Ideal) S_ .f32 0x00000000#32) reducesTo_S2048x64_S2048_d1 h_S_) shapeCasts_S2048_S1x2048 := by
  dsimp only [Gen.V, Gen.hostOps0]; after_results; rfl

/-- The width row as the region finds it. -/
theorem V_widths (c : Dev nD) : (V m c main_v6 : S1x2048.Idx → EReal)
    = shapeCast S1x2048 (Host.exp (F := Ideal) (mulf (broadcastInDim S2048 ![] bcast_S_S2048 (constant (F := Ideal) S_ .f32 0xC0000000#32))
        (m ((c : Thread nD τ).loc main_arg2)))) shapeCasts_S2048_S1x2048 := by
  dsimp only [Gen.V, Gen.hostOps0]; after_results; rfl

/-! ## The windows' blocks, read where the grid point puts them -/

theorem hz : (![0, 0] : Fin 2 → Nat) = fun _ => 0 := funext fun a => by fin_cases a <;> rfl

/-- The printed index maps, decided over the 128 grid points: the x window and the result window sit at row block t,
    every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block of x is row 512·t + p of x. -/
theorem xBlock_apply (c : Dev nD) (t : Fin cfg0.N) (p : Fin 512) (k : Fin 64) (r : Fin 65536) (hr : r.val = t.val * 512 + p.val) :
    (iblk m c 0 t : Vec Ideal S512x64 .f32) (ix2 p k) = argX m c (ix2 r k) := by
  obtain ⟨e00, e01, -⟩ := idx_facts t
  show V m c main_arg0 (((cfg0.win 0).blk t).view.emb (ix2 p k)) = _
  rw [V_main_arg0]
  congr 1
  funext a
  apply Fin.ext
  match a with
  | ⟨0, _⟩ => show win0_0.index t (0 : Fin 2) * 512 + 1 * p.val = r.val; omega
  | ⟨1, _⟩ => show win0_0.index t (1 : Fin 2) * 64 + 1 * k.val = k.val; omega

/-- Every point's block of c is c. -/
theorem cBlock_apply (c : Dev nD) (t : Fin cfg0.N) (q : Fin 2048) (k : Fin 64) (o : Fin 2048) (ho : o.val = q.val) :
    (iblk m c 1 t : Vec Ideal S2048x64 .f32) (ix2 q k) = argC m c (ix2 o k) := by
  obtain ⟨-, -, e10, e11, -⟩ := idx_facts t
  show V m c main_arg1 (((cfg0.win 1).blk t).view.emb (ix2 q k)) = _
  rw [V_main_arg1]
  congr 1
  funext a
  apply Fin.ext
  match a with
  | ⟨0, _⟩ => show win0_1.index t (0 : Fin 2) * 2048 + 1 * q.val = o.val; omega
  | ⟨1, _⟩ => show win0_1.index t (1 : Fin 2) * 64 + 1 * k.val = k.val; omega

/-- Every point's block of the squared-norm row, at q, is the squared norm of centre q. -/
theorem normBlock_apply (c : Dev nD) (t : Fin cfg0.N) (q : Fin 2048) (o : Fin 2048) (ho : o.val = q.val) :
    (iblk m c 2 t : Vec Ideal S1x2048 .f32) (ix2 (0 : Fin 1) q)
      = (∑ k : Fin 64, argC m c (ix2 o k) * argC m c (ix2 o k) : EReal) := by
  obtain ⟨-, -, -, -, e20, e21, -⟩ := idx_facts t
  show V m c main_v2 (((cfg0.win 2).blk t).view.emb (ix2 (0 : Fin 1) q)) = _
  have he : ((cfg0.win 2).blk t).view.emb (ix2 (0 : Fin 1) q) = ix2 (0 : Fin 1) o := by
    funext a
    apply Fin.ext
    match a with
    | ⟨0, _⟩ => show win0_2.index t (0 : Fin 2) * 1 + 1 * 0 = 0; omega
    | ⟨1, _⟩ => show win0_2.index t (1 : Fin 2) * 2048 + 1 * q.val = o.val; omega
  rw [he, V_norms, hostRowSum_apply]
  rfl

/-- Every point's block of the width row, at q, is e^(−2·ls[q]). -/
theorem widthBlock_apply (c : Dev nD) (t : Fin cfg0.N) (q : Fin 2048) (o : Fin 2048) (ho : o.val = q.val) :
    (iblk m c 3 t : Vec Ideal S1x2048 .f32) (ix2 (0 : Fin 1) q)
      = Ideal.exp (Ideal.ofBits .f32 0xC0000000#32 * argL m c (ix1 o)) := by
  obtain ⟨-, -, -, -, -, -, e30, e31, -⟩ := idx_facts t
  show V m c main_v6 (((cfg0.win 3).blk t).view.emb (ix2 (0 : Fin 1) q)) = _
  have he : ((cfg0.win 3).blk t).view.emb (ix2 (0 : Fin 1) q) = ix2 (0 : Fin 1) o := by
    funext a
    apply Fin.ext
    match a with
    | ⟨0, _⟩ => show win0_3.index t (0 : Fin 2) * 1 + 1 * 0 = 0; omega
    | ⟨1, _⟩ => show win0_3.index t (1 : Fin 2) * 2048 + 1 * q.val = o.val; omega
  rw [he, V_widths, hostWidth_apply]

/-! ## One entry of the stored block is one entry of the layer -/

/-- For blocks that read the arguments as above, the stored value at (p, q) is the layer's entry (r, o). -/
theorem entry_eq (X : FVec Ideal S65536x64 .f32) (C : FVec Ideal S2048x64 .f32) (L : FVec Ideal S2048 .f32)
    (x0 : Vec Ideal S512x64 .f32) (x1 : Vec Ideal S2048x64 .f32) (x2 x4 : Vec Ideal S1x2048 .f32)
    (p : Fin 512) (q : Fin 2048) (r : Fin 65536) (o : Fin 2048)
    (h0 : ∀ k : Fin 64, x0 (ix2 p k) = X (ix2 r k)) (h1 : ∀ k : Fin 64, x1 (ix2 q k) = C (ix2 o k))
    (h2 : x2 (ix2 (0 : Fin 1) q) = ∑ k : Fin 64, C (ix2 o k) * C (ix2 o k))
    (h4 : x4 (ix2 (0 : Fin 1) q) = Ideal.exp (Ideal.ofBits .f32 0xC0000000#32 * L (ix1 o))) :
    k0_pay1 (F := Ideal) x0 x1 x2 x4 (ix2 p q) = gaussAt X C L r o := by
  rw [pay_apply, h2, h4]
  simp only [h0, h1]
  rfl

/-! ## From blocks to the array -/

/-- WHAT POINT t WRITES BACK is block t of the layer of the three arguments. -/
theorem flushed_eq (c : Dev nD) (t : Fin cfg0.N) :
    (dats m 0 c).flushed 4 t = ((cfg0.win 4).blk t).view.read (Elt Ideal)
      (gauss (m ((c : Thread nD τ).loc main_arg0)) (m ((c : Thread nD τ).loc main_arg1)) (m ((c : Thread nD τ).loc main_arg2))) := by
  show (cfg0.win 4).cut (grid0.coords t) ((dats m 0 c).after 4 t) = _
  rw [after0_4]
  unfold out0_4
  rw [View.canon_unit_zero hz]
  simp only [View.ld_unit_zero (S := S512x64) hz, View.ld_unit_zero (S := S2048x64) hz, View.ld_unit_zero (S := S1x2048) hz]
  obtain ⟨-, -, -, -, -, -, -, -, e40, e41⟩ := idx_facts t
  funext j
  show k0_pay1 (F := Ideal) (iblk m c 0 t) (iblk m c 1 t) (iblk m c 2 t) (iblk m c 3 t) j
    = gaussAt (m ((c : Thread nD τ).loc main_arg0)) (m ((c : Thread nD τ).loc main_arg1)) (m ((c : Thread nD τ).loc main_arg2))
        ((((cfg0.win 4).blk t).view.emb j) 0) ((((cfg0.win 4).blk t).view.emb j) 1)
  refine (congrArg (k0_pay1 (F := Ideal) (iblk m c 0 t) (iblk m c 1 t) (iblk m c 2 t) (iblk m c 3 t)) (eq_ix2 (n0 := 512) (n1 := 2048) j)).trans ?_
  have hr : ((((cfg0.win 4).blk t).view.emb j) 0).val = t.val * 512 + (j 0).val := by
    show win0_4.index t (0 : Fin 2) * 512 + 1 * (j 0).val = _; omega
  have ho : ((((cfg0.win 4).blk t).view.emb j) 1).val = (j 1).val := by
    show win0_4.index t (1 : Fin 2) * 2048 + 1 * (j 1).val = _; omega
  exact entry_eq (m ((c : Thread nD τ).loc main_arg0)) (m ((c : Thread nD τ).loc main_arg1)) (m ((c : Thread nD τ).loc main_arg2))
    (iblk m c 0 t) (iblk m c 1 t) (iblk m c 2 t) (iblk m c 3 t) (j 0) (j 1)
    ((((cfg0.win 4).blk t).view.emb j) 0) ((((cfg0.win 4).blk t).view.emb j) 1)
    (fun k => xBlock_apply m c t (j 0) k _ hr) (fun k => cBlock_apply m c t (j 1) k _ ho)
    (normBlock_apply m c t (j 1) _ ho) (widthBlock_apply m c t (j 1) _ ho)

/-- An index of the result array is in point t's block iff each coordinate is in the block's range on its axis. -/
theorem mem_blk (t : Fin cfg0.N) (i : S65536x2048.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v7).slice (win0_4.rect t)).set ↔ _
  rw [View.set_slice_whole, Rect.mem_set_unit]
  exact Iff.rfl

/-- THE COVER: row r of the result lies in the block of point r / 512. -/
theorem cover (i : S65536x2048.Idx) : ∃ t : Fin cfg0.N, (cfg0.win 4).flush t = true ∧ i ∈ ((cfg0.win 4).blk t).view.set := by
  have hN : cfg0.N = 128 := N_0
  have hi0 : (i 0).val < 65536 := (i 0).isLt
  have hi1 : (i 1).val < 2048 := (i 1).isLt
  have hlt : (i 0).val / 512 < cfg0.N := by rw [hN]; omega
  obtain ⟨-, -, -, -, -, -, -, -, e40, e41⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val ∧ (i 0).val < win0_4.index ⟨(i 0).val / 512, hlt⟩ (0 : Fin 2) * 512 + 512
    rw [e40]; show (i 0).val / 512 * 512 ≤ (i 0).val ∧ (i 0).val < (i 0).val / 512 * 512 + 512; omega
  | ⟨1, _⟩ =>
    show win0_4.index ⟨(i 0).val / 512, hlt⟩ (1 : Fin 2) * 2048 ≤ (i 1).val ∧ (i 1).val < win0_4.index ⟨(i 0).val / 512, hlt⟩ (1 : Fin 2) * 2048 + 2048
    rw [e41]; omega

/-- THE ARRAY after the run is the layer of the three arguments. -/
theorem final (c : Dev nD) : (dats m 0 c).arrAt 4 cfg0.N
    = gauss (m ((c : Thread nD τ).loc main_arg0)) (m ((c : Thread nD τ).loc main_arg1)) (m ((c : Thread nD τ).loc main_arg2)) :=
  (dats m 0 c).arrAt_eq_of_cover 4 _ (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v7)
        = gauss (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.Finite.lean ====
/-
  What the precondition gives: every log-width is a real number.

  The precondition is one bit: the conjunction, over the three argument arrays, of "every entry's absolute value is
  below +∞".  Its third conjunct, read at entry o of the log-widths, says |ls[o]| < +∞; an extended real whose
  absolute value is below +∞ is neither infinity, so it is a real.
-/
import proofs.«146927_j16389595201656_2_alg».proof.Pre_finite_inputs
import proofs.«146927_j16389595201656_2_alg».proof.Proof.Gen.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic Idealize.ShloMosaic.ValueIdx Cert.Pre_finite_inputs Cert.Pre_finite_inputs.Facts

instance : Subsingleton S_.Idx := ⟨fun _ _ => funext fun d => d.elim0⟩

/-- The pattern 0x7F800000 denotes +∞. -/
theorem ofBits_inf : Ideal.ofBits .f32 0x7F800000#32 = (⊤ : EReal) := by
  simp [Ideal.ofBits, Ideal.ieee]

/-- A one-bit word made from a Boolean is 1 only when the Boolean is true. -/
theorem bool_of_bit {b : Bool} (h : BitVec.ofBool b = 1#1) : b = true := by
  cases b
  · exact absurd h (by decide)
  · rfl

/-- An extended real whose absolute value is below +∞ is a real. -/
theorem real_of_abs_lt_top (x : EReal) (h : max x (-x) < ⊤) : ∃ l : ℝ, x = (l : EReal) := by
  induction x using EReal.rec with
  | bot => simp at h
  | top => simp at h
  | coe r => exact ⟨r, rfl⟩

/-- Under the precondition every log-width is a real. -/
theorem logWidth_real (x0 : FVec Ideal S65536x64 .f32) (x1 : FVec Ideal S2048x64 .f32) (x2 : FVec Ideal S2048 .f32)
    (h : fn (F := Ideal) x0 x1 x2 = fun _ => 1#1) (o : Fin 2048) : ∃ l : ℝ, x2 (ix1 o) = (l : EReal) := by
  have h0 := congrFun h ValueIdx.ix0
  dsimp only [fn] at h0
  have hC := (IntOp.andi_eq_one.mp h0).2
  have hel := Host.reduce_andi_all _ _ reducesTo_S2048_S_d0 h_S_ _ hC (ix1 o)
  have hb : broadcastInDim S2048 ![] bcast_S_S2048 (constant (F := Ideal) S_ .f32 0x7F800000#32) (ix1 o) = Ideal.ofBits .f32 0x7F800000#32 :=
    broadcastInDim_apply _ bcast_S_S2048 _ (ix1 o) (fun a => a.elim0) (fun a => a.elim0)
  have hlt : max (x2 (ix1 o)) (-(x2 (ix1 o))) < (⊤ : EReal) := by
    have : Ideal.cmp .olt (max (x2 (ix1 o)) (-(x2 (ix1 o)))) (Ideal.ofBits .f32 0x7F800000#32) = 1#1 := by
      rw [← hb]; exact hel
    rw [ofBits_inf] at this
    exact of_decide_eq_true (bool_of_bit this)
  exact real_of_abs_lt_top _ hlt

end Cert.Finite

end
-- ==== Proof.lean ====
/-
  A Gaussian radial-basis layer: for x : [65536, 64], centres c : [2048, 64] and log-widths ls : [2048] the result is
  the [65536, 2048] array whose entry (r, o) is exp(−(‖x[r] − c[o]‖ / e^(ls[o]))²), with the squared distance expanded as
  ‖x[r]‖² − 2·x[r]·c[o] + ‖c[o]‖² and clamped at zero.

  The kernel prepares ‖c[o]‖² and the factor e^(−2·ls[o]) once, then for each block of 512 rows computes
  exp((0 − s) · e^(−2·ls[o])) with s the clamped squared distance; the reference takes √s, divides by e^(ls[o]), squares,
  negates and exponentiates.  On the extended reals the two sums of squares, the contraction over the 64 features and
  the clamp are the same terms on both sides (a matrix product into a zero accumulator is the host's contraction, a lane
  sum is the host's sum, narrowing to bf16 is the identity), and the two closing forms agree for every s ≥ 0 as soon as
  ls[o] is a real number: (√s / eˡ)² = s · e^(−2l), and at s = +∞ both results are 0.  The clamp gives s ≥ 0; the
  precondition gives the real log-width; nothing is asked of x and c.

  Proof/GaussLaw.lean     the law on the extended reals
  Proof/GaussSpec.lean    the layer as one function of the arguments, in both forms, and their equality
  Proof/RefValue.lean     the reference's result is the layer (distance over width)
  Proof/KernelPayload.lean  the kernel body's stored value at one entry of its block
  Proof/KernelValue.lean  the kernel's result array is the layer (width as a factor): blocks, cover, run
  Proof/Finite.lean       the precondition makes every log-width real
  Proof/LibColumn.lean    a column [a, 1] cast from [a] and broadcast to [a, b], read at an index
-/
import proofs.«146927_j16389595201656_2_alg».proof.Defs
import proofs.«146927_j16389595201656_2_alg».proof.Proof.Gen.Kernel
import proofs.«146927_j16389595201656_2_alg».proof.Proof.Gen.Kernel.Skeleton
import proofs.«146927_j16389595201656_2_alg».proof.Proof.Gen.Kernel.Launch
import proofs.«146927_j16389595201656_2_alg».proof.Proof.Gen.Kernel.Points
import proofs.«146927_j16389595201656_2_alg».proof.Proof.Gen.Kernel.Frame
import proofs.«146927_j16389595201656_2_alg».proof.Proof.Gen.KernelIdeal
import proofs.«146927_j16389595201656_2_alg».proof.Proof.Gen.KernelIdeal.Skeleton
import proofs.«146927_j16389595201656_2_alg».proof.Proof.Gen.KernelIdeal.Launch
import proofs.«146927_j16389595201656_2_alg».proof.Proof.Gen.KernelIdeal.Points
import proofs.«146927_j16389595201656_2_alg».proof.Proof.Gen.KernelIdeal.Frame
import proofs.«146927_j16389595201656_2_alg».proof.Proof.Gen.ReferenceIdeal
import proofs.«146927_j16389595201656_2_alg».proof.Proof.Gen.Pre_finite_inputs
import proofs.«146927_j16389595201656_2_alg».proof.Proof.Gen.KernelIdeal.Value
import proofs.«146927_j16389595201656_2_alg».proof.Proof.Gen.ReferenceIdeal.Run
import proofs.«146927_j16389595201656_2_alg».proof.Proof.Gen.ReferenceIdeal.Read
import proofs.«146927_j16389595201656_2_alg».proof.Proof.GaussSpec
import proofs.«146927_j16389595201656_2_alg».proof.Proof.RefValue
import proofs.«146927_j16389595201656_2_alg».proof.Proof.KernelValue
import proofs.«146927_j16389595201656_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at the layer with the width as a factor, the reference's at the layer as a distance
    over a width, of arguments that agree; the two are one array where every log-width is real, which the
    precondition says. -/
theorem algebraic : Cert.algebraic_KernelIdeal_ReferenceIdeal := by
  intro m ρ m' ρ' hpre hagree
  refine ⟨fun c => Cert.GaussSpec.gauss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.val_eq, (hagree c).1, (hagree c).2.1, (hagree c).2.2]
  exact Cert.GaussSpec.gaussRef_eq_gauss _ _ _ (Cert.Finite.logWidth_real _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
